-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x2048 : Shape := ⟨4, ![2, 16, 2048, 2048]⟩
abbrev S2048 : Shape := ⟨1, ![2048]⟩
abbrev S_ : Shape := ⟨0, ![]⟩

class Facts : Prop where
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2x16x2048x2048 .f32) (main_arg1 : FVec F S2048 .f32) (main_arg2 : IVec S2048 32) : IVec S_ 1 :=
  let main_v0 : FVec F S2x16x2048x2048 .f32 := Host.absf main_arg0
  let main_cst : FVec F S_ .f32 := constant S_ .f32 0x7F800000#32
  let main_v1 : FVec F S2x16x2048x2048 .f32 := broadcastInDim S2x16x2048x2048 ![] bcast_S_S2x16x2048x2048 main_cst
  let main_v2 : IVec S2x16x2048x2048 1 := cmpf .olt main_v0 main_v1
  let main_c : IVec S_ 1 := constantI S_ 1 1#1
  let main_v3 : IVec S_ 1 := (fun x v => Host.reduce IntOp.andi x v reducesTo_S2x16x2048x2048_S_d0_1_2_3 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S2x16x2048x2048 : Shape := ⟨4, ![2, 16, 2048, 2048]⟩
abbrev S2048 : Shape := ⟨1, ![2048]⟩
abbrev S_ : Shape := ⟨0, ![]⟩
abbrev S2048x1 : Shape := ⟨2, ![2048, 1]⟩
abbrev S1x1x2048x1 : Shape := ⟨4, ![1, 1, 2048, 1]⟩
abbrev S1x1x1024x2048 : Shape := ⟨4, ![1, 1, 1024, 2048]⟩
abbrev S1x1x1024x1 : Shape := ⟨4, ![1, 1, 1024, 1]⟩

abbrev nBuf : Space → Nat
  | .hbm => 14
  | .vmem => 6
  | .smem => 0
  | _ => 0

abbrev bufTy : (tb : Table) → Fin (tcTables nBuf tb) → BufTy
  | .hbm, ⟨0, _⟩ => ⟨S2x16x2048x2048, .f32⟩
  | .hbm, ⟨1, _⟩ => ⟨S2048, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048, .f32⟩
  | .hbm, ⟨12, _⟩ => ⟨S1x1x2048x1, .f32⟩
  | .hbm, ⟨13, _⟩ => ⟨S2x16x2048x2048, .f32⟩
  | .local _ .vmem, ⟨0, _⟩ => ⟨S1x1x1024x2048, .f32⟩
  | .local _ .vmem, ⟨1, _⟩ => ⟨S1x1x1024x2048, .f32⟩
  | .local _ .vmem, ⟨2, _⟩ => ⟨S1x1x1024x1, .f32⟩
  | .local _ .vmem, ⟨3, _⟩ => ⟨S1x1x1024x1, .f32⟩
  | .local _ .vmem, ⟨4, _⟩ => ⟨S1x1x1024x2048, .f32⟩
  | .local _ .vmem, ⟨5, _⟩ => ⟨S1x1x1024x2048, .f32⟩
  | _, _ => ⟨S2x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg2.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  shapeCasts_S2048_S1x1x2048x1 : S2048.ShapeCasts S1x1x2048x1
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  inb_S1x1x1024x1_S1x1x1024x1_0_0_0_0 : ∀ a, (![0, 0, 0, 0] : Fin 4 → Nat) a + S1x1x1024x1.size a ≤ S1x1x1024x1.size a
  h_S1x1x1024x1 : 0 < S1x1x1024x1.numel
  shapeCasts_S1x1x1024x1_S1x1x1024x1 : S1x1x1024x1.ShapeCasts S1x1x1024x1
  broadcasts_S1x1x1024x1_S1x1x1024x2048 : S1x1x1024x1.Broadcasts S1x1x1024x2048
  gather_S2048_S2048x1_S2048_n_0_n_n_0_1_1_wf : GatherDims.WF S2048 S2048x1 S2048 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x2048.size a ≤ S2x16x2048x2048.size a
  hwx0_0 : ∀ i : grid0.Coords, EltTy.bits .f32 = 32 ∨ (Rect.block (s := S2x16x2048x2048) S1x1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1.size a ≤ S1x1x2048x1.size a
  hwx0_1 : ∀ i : grid0.Coords, EltTy.bits .f32 = 32 ∨ (Rect.block (s := S1x1x2048x1) S1x1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x2048.size a ≤ S2x16x2048x2048.size a
  hwx0_2 : ∀ i : grid0.Coords, EltTy.bits .f32 = 32 ∨ (Rect.block (s := S2x16x2048x2048) S1x1x1024x2048.size (cc0_transform_2 i) (hinb0_2 i)).WholeWords (EltTy.packing .f32)

variable [Facts₀]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf

abbrev win0_0 : Pipeline.Window sig grid0 :=
  Pipeline.Window.ofSpec (Memref.whole main_arg0) S1x1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S2x16x2048x2048 : Shape := ⟨4, ![2, 16, 2048, 2048]⟩
abbrev S2048 : Shape := ⟨1, ![2048]⟩
abbrev S_ : Shape := ⟨0, ![]⟩
abbrev S2048x1 : Shape := ⟨2, ![2048, 1]⟩
abbrev S1x1x2048x1 : Shape := ⟨4, ![1, 1, 2048, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x16x2048x2048, .f32⟩
  | .hbm, ⟨1, _⟩ => ⟨S2048, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048, .f32⟩
  | .hbm, ⟨12, _⟩ => ⟨S1x1x2048x1, .f32⟩
  | .hbm, ⟨13, _⟩ => ⟨S2x16x2048x2048, .f32⟩
  | .hbm, ⟨14, _⟩ => ⟨S2x16x2048x2048, .f32⟩
  | _, _ => ⟨S2x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x1x2048x1_2 : S2048.BroadcastsInDim S1x1x2048x1 (![2] : Fin 1 → Fin S1x1x2048x1.rank)
  bcast_S1x1x2048x1_S2x16x2048x2048_0_1_2_3 : S1x1x2048x1.BroadcastsInDim S2x16x2048x2048 (![0, 1, 2, 3] : Fin 4 → Fin S2x16x2048x2048.rank)
  gather_S2048_S2048x1_S2048_n_0_n_n_0_1_1_wf : GatherDims.WF S2048 S2048x1 S2048 [] [0] [] [0] [] 1 ![1]

variable [Facts₀]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf

class Facts : Prop extends Facts₀ where

variable [Facts]
-- ==== Proof.BiasedScores.lean ====
/-
  The function both programs compute.  The scores are an array indexed by (batch, head, query, key) of extents
  (2, 16, 2048, 2048); a per-query bias is a vector indexed by the query.  The result adds to every score the
  bias of its query:  out (b, h, q, k) = scores (b, h, q, k) + bias q.  Nothing else happens to a score, so the
  statement holds for any float arithmetic: it only names which two numbers are added at each index.
-/
import Idealize.ShloMosaic.PureOps.Ideal
import Idealize.ShloMosaic.Lib.ValueIdx

noncomputable section

namespace Cert.BiasedScores

open Idealize.ShloMosaic

variable {F : FTy → Type} [FloatOps F]

/-- The index set of the scores: (batch, head, query, key). -/
abbrev Scores : Shape := ⟨4, ![2, 16, 2048, 2048]⟩
/-- The index set of the per-query bias. -/
abbrev Queries : Shape := ⟨1, ![2048]⟩

/-- The query a score belongs to: its third coordinate. -/
abbrev queryOf (i : Scores.Idx) : Queries.Idx := fun a => match a with
  | ⟨0, _⟩ => ⟨(i 2).val, (i 2).isLt⟩

/-- Every score plus the bias of its query. -/
def biased (s : Scores.Idx → Elt F .f32) (g : Queries.Idx → Elt F .f32) : Scores.Idx → Elt F .f32 :=
  fun i => FloatOps.addf (s i) (g (queryOf i))

theorem biased_apply (s : Scores.Idx → Elt F .f32) (g : Queries.Idx → Elt F .f32) (i : Scores.Idx) :
    biased s g i = FloatOps.addf (s i) (g (queryOf i)) := rfl

end Cert.BiasedScores

end
-- ==== Proof.KernelBiased.lean ====
/-
  What the kernel leaves in its result array.  Before the grid runs, the host gathers the bias at the offsets
  (a negative offset first moved up by 2048) into a vector [2048] and re-lays it as a column [1, 1, 2048, 1].
  Grid point (b, h, qi) stages the block of the scores with batch b, head h and the 1024 queries
  qi * 1024 .. qi * 1024 + 1023 (all 2048 keys), and the 1024 rows of the column with the same queries; the body
  broadcasts the column along the keys and adds.  So entry (0, 0, r, k) of the block it writes back is
  scores (b, h, qi * 1024 + r, k) + bias (qi * 1024 + r): the block of "every score plus the bias of its query".
  The 64 blocks tile the array, hence the array ends holding that function everywhere.
-/
import proofs.«125391_j61933428413984_2_alg».proof.Proof.Gen.KernelIdeal.Value
import proofs.«125391_j61933428413984_2_alg».proof.Proof.BiasedScores
import Idealize.ShloMosaic.Lib.Pipeline.Value
import Idealize.ShloMosaic.Lib.StableHlo.Run

set_option maxRecDepth 16384

noncomputable section

namespace Cert.KernelIdeal.Biased

open Cert.KernelIdeal Cert.KernelIdeal.Gen Idealize.ShloMosaic Idealize.ShloMosaic.TcCoe Idealize.SL.Sem
open Idealize.ShloMosaic.StableHlo Cert.BiasedScores
open Idealize.ShloMosaic.Pipeline (Dat)

variable {F : FTy → Type} [FloatOps F]
variable (m : (ℓ : Loc nD τ sig) → Buf (Elt F) ℓ) (ρ : Dev nD → PrngReg)

/-! ## The per-query bias and the column the region finds -/

/-- The per-query bias as the host computes it before the region: the bias vector gathered at the offsets, a
    negative offset moved up by 2048 first. -/
def perQuery (x1 : (⟨S2048, .f32⟩ : BufTy).Contents (Elt F)) (x2 : (⟨S2048, .i32⟩ : BufTy).Contents (Elt F)) :
    (⟨S2048, .f32⟩ : BufTy).Contents (Elt F) :=
  Host.gather gather_S2048_S2048x1_S2048_n_0_n_n_0_1_1 x1
    (broadcastInDim S2048x1 ![0] bcast_S2048_S2048x1_0
      (select (cmpi .slt x2 (broadcastInDim S2048 ![] bcast_S_S2048 (constantI S_ 32 0#32)))
        (addi x2 (broadcastInDim S2048 ![] bcast_S_S2048 (constantI S_ 32 2048#32))) x2))

/-- The array the second window stages is the per-query bias re-laid as a column. -/
theorem column_at_entry (c : Dev nD) :
    (V m c main_v7 : S1x1x2048x1.Idx → Elt F .f32)
      = shapeCast S1x1x2048x1 (perQuery (m ((c : Thread nD τ).loc main_arg1)) (m ((c : Thread nD τ).loc main_arg2)))
          shapeCasts_S2048_S1x1x2048x1 := by
  dsimp only [Gen.V, Gen.hostOps0]; after_results; rfl

/-- Row `r` of the column is the bias of query `r`: the re-laying keeps the row-major position, and the column's
    other three axes have extent one. -/
theorem column_entry (c : Dev nD) (z : S1x1x2048x1.Idx) :
    V m c main_v7 z = perQuery (m ((c : Thread nD τ).loc main_arg1)) (m ((c : Thread nD τ).loc main_arg2))
      (fun a => match a with | ⟨0, _⟩ => ⟨(z 2).val, (z 2).isLt⟩) := by
  refine (congrFun (column_at_entry m c) z).trans ?_
  refine shapeCast_apply _ _ z _ ?_
  rw [Shape.rowMajor_val_one, Shape.rowMajor_val_four]
  have h0 : (z 0).val < 1 := (z 0).isLt
  have h1 : (z 1).val < 1 := (z 1).isLt
  have h3 : (z 3).val < 1 := (z 3).isLt
  show (z 2).val = (((z 0).val * 1 + (z 1).val) * 2048 + (z 2).val) * 1 + (z 3).val
  omega

/-! ## One block -/

theorem zero_offsets : (![0, 0, 0, 0] : Fin 4 → Nat) = fun _ => 0 := funext fun a => by fin_cases a <;> rfl

/-- What the body leaves in the staged result block, entry by entry: the scores' block entry plus the column's
    entry of the same row. -/
theorem block_entry (x0 : Vec F S1x1x1024x2048 .f32) (x1 : Vec F S1x1x1024x1 .f32) (y : S1x1x1024x2048.Idx) :
    out0_2 x0 x1 y = FloatOps.addf (x0 y) (x1 (Value.ix2_1 y)) := by
  unfold out0_2
  rw [Value.canon2_eq]
  show FloatOps.addf (View.ld x0 r0_0 (Value.ix2_0 y)) (View.ld x1 r0_1 (Value.ix2_1 y)) = _
  rw [View.ld_unit_zero zero_offsets, View.ld_unit_zero zero_offsets]
  have h0 : (y 0).val < 1 := (y 0).isLt
  have h1 : (y 1).val < 1 := (y 1).isLt
  have e0 : Value.ix2_0 y = y := funext fun a => Fin.ext (match a with
    | ⟨0, _⟩ => by show 0 = (y 0).val; omega
    | ⟨1, _⟩ => by show 0 = (y 1).val; omega
    | ⟨2, _⟩ => rfl
    | ⟨3, _⟩ => rfl)
  rw [e0]

/-! ## From blocks to the array -/

/-- The printed index maps over the 64 grid points: the scores' window moves with the result's, the column's window
    follows the result's query tile, and the result's block indices stay in their ranges. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = win0_2.index t (2 : Fin 4) ∧ win0_0.index t (3 : Fin 4) = win0_2.index t (3 : Fin 4)
    ∧ win0_1.index t (2 : Fin 4) = win0_2.index t (2 : Fin 4)
    ∧ win0_2.index t (2 : Fin 4) ≤ 1 :=
  (by decide +kernel : ∀ t : Fin grid0.N, _)

/-- Every (batch, head, query tile) is some grid point's block. -/
theorem idx_onto : ∀ (q0 : Fin 2) (q1 : Fin 16) (q2 : Fin 2), ∃ t : Fin cfg0.N, win0_2.index t = ![q0.val, q1.val, q2.val, 0] :=
  (by decide +kernel : ∀ (q0 : Fin 2) (q1 : Fin 16) (q2 : Fin 2), ∃ t : Fin grid0.N, win0_2.index t = ![q0.val, q1.val, q2.val, 0])

/-- What grid point `t` writes back is its block of "every score plus the bias of its query". -/
theorem flushed_eq (c : Dev nD) (t : Fin cfg0.N) :
    (dats m 0 c).flushed 2 t = ((cfg0.win 2).blk t).view.read (Elt F)
      (biased (m ((c : Thread nD τ).loc main_arg0))
        (perQuery (m ((c : Thread nD τ).loc main_arg1)) (m ((c : Thread nD τ).loc main_arg2)))) := by
  rw [Value.flushed2]
  funext j
  show out0_2 (iblk m c 0 t) (iblk m c 1 t) j = biased _ _ (((cfg0.win 2).blk t).view.emb j)
  refine (block_entry _ _ j).trans ?_
  rw [biased_apply]
  obtain ⟨e0, e1, e2, e3, e4, e5⟩ := idx_facts t
  show FloatOps.addf (V m c main_arg0 (((cfg0.win 0).blk t).view.emb j))
      (V m c main_v7 (((cfg0.win 1).blk t).view.emb (Value.ix2_1 j))) = _
  rw [column_entry, V_main_arg0]
  have h0 : ((cfg0.win 0).blk t).view.emb j = ((cfg0.win 2).blk t).view.emb j := by
    funext a; apply Fin.ext
    match a with
    | ⟨0, _⟩ => show win0_0.index t (0 : Fin 4) * 1 + 1 * (j 0).val = win0_2.index t (0 : Fin 4) * 1 + 1 * (j 0).val; omega
    | ⟨1, _⟩ => show win0_0.index t (1 : Fin 4) * 1 + 1 * (j 1).val = win0_2.index t (1 : Fin 4) * 1 + 1 * (j 1).val; omega
    | ⟨2, _⟩ => show win0_0.index t (2 : Fin 4) * 1024 + 1 * (j 2).val = win0_2.index t (2 : Fin 4) * 1024 + 1 * (j 2).val; omega
    | ⟨3, _⟩ => show win0_0.index t (3 : Fin 4) * 2048 + 1 * (j 3).val = win0_2.index t (3 : Fin 4) * 2048 + 1 * (j 3).val; omega
  rw [h0]
  -- the column's block and the result's block start at the same query, so both sides read the bias of one query
  have hq : (fun a : Fin 1 => match a with
      | ⟨0, _⟩ => (⟨((((cfg0.win 1).blk t).view.emb (Value.ix2_1 j)) 2).val, ((((cfg0.win 1).blk t).view.emb (Value.ix2_1 j)) 2).isLt⟩ : Fin 2048))
      = queryOf (((cfg0.win 2).blk t).view.emb j) := by
    funext a
    match a with
    | ⟨0, _⟩ =>
      apply Fin.ext
      show win0_1.index t (2 : Fin 4) * 1024 + 1 * (j 2).val = win0_2.index t (2 : Fin 4) * 1024 + 1 * (j 2).val
      omega
  exact congrArg (fun q => FloatOps.addf _ (perQuery _ _ q)) hq

/-- An index of the array is in point `t`'s block iff each coordinate is in the block's range on its axis. -/
theorem mem_blk (t : Fin cfg0.N) (i : S2x16x2048x2048.Idx) :
    i ∈ ((cfg0.win 2).blk t).view.set ↔ ∀ a : Fin 4, win0_2.index t a * S1x1x1024x2048.size a ≤ (i a).val
      ∧ (i a).val < win0_2.index t a * S1x1x1024x2048.size a + S1x1x1024x2048.size a := by
  show i ∈ ((View.whole main_v8).slice (win0_2.rect t)).set ↔ _
  rw [View.set_slice_whole, Rect.mem_set_unit]
  exact Iff.rfl

/-- The blocks tile the array: index (b, h, q, k) lies in the block of the point with batch b, head h and query
    tile q / 1024. -/
theorem covered (i : S2x16x2048x2048.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 1024, by omega⟩
  have q0 : win0_2.index t (0 : Fin 4) = (i 0).val := congrFun ht 0
  have q1 : win0_2.index t (1 : Fin 4) = (i 1).val := congrFun ht 1
  have q2 : win0_2.index t (2 : Fin 4) = (i 2).val / 1024 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 2048 ≤ (i 3).val ∧ (i 3).val < win0_2.index t (3 : Fin 4) * 2048 + 2048; omega

/-- The result array after the run: every score plus the bias of its query. -/
theorem final (c : Dev nD) :
    (dats m 0 c).arrAt 2 cfg0.N = biased (m ((c : Thread nD τ).loc main_arg0))
      (perQuery (m ((c : Thread nD τ).loc main_arg1)) (m ((c : Thread nD τ).loc main_arg2))) :=
  (dats m 0 c).arrAt_eq_of_cover 2 _ (fun t _ => flushed_eq m c t) covered

/-- Every weakly fair execution of the kernel's program ends with the result array at that function of the
    argument arrays, the arguments unchanged. -/
theorem run : θ_run defs (onTc (τ := τ) (main (F := F))) ⟨m, fun _ => 0, ρ⟩ fun r => ∀ c : Dev nD,
      r.2.mem ((c : Thread nD τ).loc main_v8) = biased (m ((c : Thread nD τ).loc main_arg0))
        (perQuery (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Biased

end
-- ==== Proof.ReferenceBiased.lean ====
/-
  The reference adds the per-query bias to the scores after two broadcasts: the gathered vector [2048] is laid
  along the query axis of [1, 1, 2048, 1], and that array is broadcast to the scores' shape.  Read at a score's
  index, the two broadcasts keep only the query coordinate, so the reference's result is every score plus the
  bias of its query.
-/
import proofs.«125391_j61933428413984_2_alg».proof.Proof.Gen.ReferenceIdeal.Read
import proofs.«125391_j61933428413984_2_alg».proof.Proof.BiasedScores

noncomputable section

namespace Cert.ReferenceIdeal.Biased

open Cert.ReferenceIdeal Cert.ReferenceIdeal.Gen Cert.ReferenceIdeal.Read Idealize.ShloMosaic Cert.BiasedScores

variable {F : FTy → Type} [FloatOps F]

/-- Through both broadcasts a score's index reads the gathered vector at the score's query. -/
theorem query_of_broadcasts (i : S2x16x2048x2048.Idx) : idx_main_v7 (idx_main_v8 i) = queryOf i :=
  funext fun a => match a with | ⟨0, _⟩ => rfl

/-- The reference's result is every score plus the gathered bias of its query. -/
theorem result_eq (x0 : (⟨S2x16x2048x2048, .f32⟩ : BufTy).Contents (Elt F)) (x1 : (⟨S2048, .f32⟩ : BufTy).Contents (Elt F))
    (x2 : (⟨S2048, .i32⟩ : BufTy).Contents (Elt F)) :
    val_main_v9 (F := F) x0 x1 x2 = biased x0 (val_main_v6 (F := F) x1 x2) := by
  funext i
  rw [val_main_v9_apply, val_main_v8_apply, val_main_v7_apply, query_of_broadcasts, biased_apply]

end Cert.ReferenceIdeal.Biased

end
-- ==== Proof.lean ====
/-
  The kernel adds to every score the bias of the score's query, out (b, h, q, k) = scores (b, h, q, k) + bias (offset q),
  one block of 1024 queries at a time over a grid of 2 x 16 x 2 points; the reference does the same with two broadcasts
  of the gathered bias and one addition of whole arrays.  Both gather the bias by the same host operations, so that
  vector is one term on both sides and is never opened.  The kernel's result array is shown to hold "every score plus
  the bias of its query" block by block (Proof/KernelBiased.lean), the reference's result is read through its two
  broadcasts to the same function (Proof/ReferenceBiased.lean), and the function itself is Proof/BiasedScores.lean.
  No law of arithmetic is used: at each index the two programs add the same two numbers, so finiteness of the
  inputs plays no part.  The kernel's program is printed without any rewriting, so there is nothing to preserve.
-/
import proofs.«125391_j61933428413984_2_alg».proof.Defs
import proofs.«125391_j61933428413984_2_alg».proof.Proof.Gen.Kernel
import proofs.«125391_j61933428413984_2_alg».proof.Proof.Gen.Kernel.Skeleton
import proofs.«125391_j61933428413984_2_alg».proof.Proof.Gen.Kernel.Launch
import proofs.«125391_j61933428413984_2_alg».proof.Proof.Gen.Kernel.Points
import proofs.«125391_j61933428413984_2_alg».proof.Proof.Gen.Kernel.Frame
import proofs.«125391_j61933428413984_2_alg».proof.Proof.Gen.KernelIdeal
import proofs.«125391_j61933428413984_2_alg».proof.Proof.Gen.KernelIdeal.Skeleton
import proofs.«125391_j61933428413984_2_alg».proof.Proof.Gen.KernelIdeal.Launch
import proofs.«125391_j61933428413984_2_alg».proof.Proof.Gen.KernelIdeal.Points
import proofs.«125391_j61933428413984_2_alg».proof.Proof.Gen.KernelIdeal.Frame
import proofs.«125391_j61933428413984_2_alg».proof.Proof.Gen.ReferenceIdeal
import proofs.«125391_j61933428413984_2_alg».proof.Proof.Gen.Pre_finite_inputs
import proofs.«125391_j61933428413984_2_alg».proof.Proof.Gen.KernelIdeal.Value
import proofs.«125391_j61933428413984_2_alg».proof.Proof.Gen.ReferenceIdeal.Run
import proofs.«125391_j61933428413984_2_alg».proof.Proof.Gen.ReferenceIdeal.Read
import proofs.«125391_j61933428413984_2_alg».proof.Proof.KernelBiased
import proofs.«125391_j61933428413984_2_alg».proof.Proof.ReferenceBiased
import Idealize.ShloMosaic.Adequacy
import Idealize.ShloMosaic.Init

noncomputable section

namespace Cert.Proof

open Idealize.ShloMosaic Idealize.SL.Sem

/-- Both programs gather the bias by the same operations of the same two arguments: one vector. -/
theorem per_query_eq (x1 : (⟨Cert.ReferenceIdeal.S2048, .f32⟩ : BufTy).Contents (Elt Ideal))
    (x2 : (⟨Cert.ReferenceIdeal.S2048, .i32⟩ : BufTy).Contents (Elt Ideal)) :
    Cert.ReferenceIdeal.Read.val_main_v6 (F := Ideal) x1 x2 = Cert.KernelIdeal.Biased.perQuery (F := Ideal) x1 x2 := rfl

theorem frame_kernel : Cert.frame_Kernel := fun m ρ _ => Cert.Kernel.Gen.frame m ρ

theorem frame_kernel_ideal : Cert.frame_KernelIdeal := fun m ρ _ => Cert.KernelIdeal.Gen.frame m ρ

/-- The reference's run with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result at every score plus the bias of its query. -/
theorem algebraic : Cert.algebraic_KernelIdeal_ReferenceIdeal := by
  intro m ρ m' ρ' _ hagree
  refine ⟨_, Cert.KernelIdeal.Biased.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Biased.result_eq, per_query_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
